-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024x1024 .f32) (main_arg15 : FVec F S1024x1024 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  main_v78

def fn_part3 {F : FTy → Type} [FloatOps F] (main_arg11 : FVec F S1024x1024 .f32) (main_arg12 : FVec F S1024 .f32) (main_arg13 : FVec F S1024x1024 .f32) (main_arg14 : FVec F S1024x1024 .f32) (main_arg15 : FVec F S1024x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024x1024 .f32) (main_arg15 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024x1024 .f32) (main_arg15 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024x1024 .f32) (main_arg15 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x1 : Shape := ⟨2, ![4096, 1]⟩
abbrev S512x1024 : Shape := ⟨2, ![512, 1024]⟩
abbrev S512x1 : Shape := ⟨2, ![512, 1]⟩
abbrev S512 : Shape := ⟨1, ![512]⟩

abbrev nBuf : Space → Nat
  | .hbm => 42
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .f32⟩
  | .hbm, ⟨27, _⟩ => ⟨S1024x1024, .bf16⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S4096x1024, .f32⟩
  | .hbm, ⟨41, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1, .f32⟩
  | .local _ .vmem, ⟨17, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S4096x1024.size a
  hwx0_13 : ∀ i : grid0.Coords, EltTy.bits .f32 = 32 ∨ (Rect.block (s := S4096x1024) S512x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S4096x1.size a
  hwx0_14 : ∀ i : grid0.Coords, EltTy.bits .f32 = 32 ∨ (Rect.block (s := S4096x1) S512x1.size (cc0_transform_14 i) (hinb0_14 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v24_0) S512x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v24_1) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S1024x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S1024x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S4096_S4096x1_0 : S4096.BroadcastsInDim S4096x1 (![0] : Fin 1 → Fin S4096x1.rank)
  dot_S4096x1024_S1024x1024_S4096x1024_1_1_0_0_n_n_wf : DotDims.WF S4096x1024 S1024x1024 S4096x1024 [1] [1] [0] [0] [] []

variable [Facts₀]

def dot_S4096x1024_S1024x1024_S4096x1024_1_1_0_0_n_n : DotDims S4096x1024 S1024x1024 S4096x1024 where
  lhsContracting := [1]
  rhsContracting := [1]
  lhsNonContracting := [0]
  rhsNonContracting := [0]
  lhsBatch := []
  rhsBatch := []
  wf := dot_S4096x1024_S1024x1024_S4096x1024_1_1_0_0_n_n_wf

class Facts : Prop extends Facts₀ where

variable [Facts]
-- ==== Proof.Spec.lean ====
/-
  The masked two-branch network, stated one row at a time over the extended reals.

  A layer sends a row x of 1024 numbers to the row whose entry q is the sum over k of x k · w q k, plus b q, where
  w q k is the weight from input k to output q (a weight matrix times its mask, entry by entry). The first branch
  is three layers with tanh between them; the second is three layers with the maximum with zero between them. From a
  row x, the first branch's row m and the second branch's row a, the result row is (x − m) · exp (−a), entry by
  entry, and the row's log-determinant is minus the sum of a. Every output row depends on the same input row only,
  so the two result arrays are these row functions applied to each row of the input matrix.
-/
import Idealize.ShloMosaic.PureOps.Ideal
import Idealize.ShloMosaic.Lib.ValueIdx

noncomputable section

namespace Cert.Spec

open Idealize.ShloMosaic Idealize.ShloMosaic.ValueIdx

/-- A row of 1024 extended reals. -/
abbrev Row := Fin 1024 → EReal

/-- One layer: entry q of the result is the sum over k of x k · w q k, plus b q. -/
def layerRow (x : Row) (w : Fin 1024 → Fin 1024 → EReal) (b : Row) : Row :=
  fun q => (∑ k : Fin 1024, x k * w q k) + b q

/-- tanh of every entry. -/
def tanhRow (x : Row) : Row := fun k => Ideal.tanh (x k)

/-- The maximum of every entry with zero. -/
def reluRow (x : Row) : Row := fun k => max (x k) 0

/-- The first branch: three layers, tanh after the first two. -/
def sRow (x : Row) (w1 : Fin 1024 → Fin 1024 → EReal) (b1 : Row) (w2 : Fin 1024 → Fin 1024 → EReal) (b2 : Row)
    (w3 : Fin 1024 → Fin 1024 → EReal) (b3 : Row) : Row :=
  layerRow (tanhRow (layerRow (tanhRow (layerRow x w1 b1)) w2 b2)) w3 b3

/-- The second branch: three layers, the maximum with zero after the first two. -/
def tRow (x : Row) (w1 : Fin 1024 → Fin 1024 → EReal) (b1 : Row) (w2 : Fin 1024 → Fin 1024 → EReal) (b2 : Row)
    (w3 : Fin 1024 → Fin 1024 → EReal) (b3 : Row) : Row :=
  layerRow (reluRow (layerRow (reluRow (layerRow x w1 b1)) w2 b2)) w3 b3

/-- The result row from the input row x, the first branch's row m and the second branch's row a. -/
def uRow (x m a : Row) : Row := fun q => (x q - m q) * Ideal.exp (-(a q))

/-- The row's log-determinant from the second branch's row a. -/
def ldRow (a : Row) : EReal := -(∑ k : Fin 1024, a k)

/-- A weight matrix times its mask, entry by entry, as the weight from input k to output q. -/
def masked (w mk : (⟨2, ![1024, 1024]⟩ : Shape).Idx → EReal) : Fin 1024 → Fin 1024 → EReal :=
  fun q k => w (ix2 q k) * mk (ix2 q k)

/-- A bias vector as a row. -/
def bias (b : (⟨1, ![1024]⟩ : Shape).Idx → EReal) : Row := fun q => b (ix1 q)

/-- Row r of the input matrix. -/
def rowOf {A : ℕ} (x : (⟨2, ![A, 1024]⟩ : Shape).Idx → EReal) (r : Fin A) : Row := fun k => x (ix2 r k)

/-- The first branch's row over row r of the input, from the argument arrays. -/
def mOf (x0 : (⟨2, ![4096, 1024]⟩ : Shape).Idx → EReal) (x1 : (⟨2, ![1024, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x13 x14 x15 : (⟨2, ![1024, 1024]⟩ : Shape).Idx → EReal)
    (r : Fin 4096) : Row :=
  sRow (rowOf x0 r) (masked x1 x13) (bias x2) (masked x3 x14) (bias x4) (masked x5 x15) (bias x6)

/-- The second branch's row over row r of the input, from the argument arrays. -/
def aOf (x0 : (⟨2, ![4096, 1024]⟩ : Shape).Idx → EReal) (x7 : (⟨2, ![1024, 1024]⟩ : Shape).Idx → EReal)
    (x8 : (⟨1, ![1024]⟩ : Shape).Idx → EReal) (x9 : (⟨2, ![1024, 1024]⟩ : Shape).Idx → EReal)
    (x10 : (⟨1, ![1024]⟩ : Shape).Idx → EReal) (x11 : (⟨2, ![1024, 1024]⟩ : Shape).Idx → EReal)
    (x12 : (⟨1, ![1024]⟩ : Shape).Idx → EReal) (x13 x14 x15 : (⟨2, ![1024, 1024]⟩ : Shape).Idx → EReal)
    (r : Fin 4096) : Row :=
  tRow (rowOf x0 r) (masked x7 x13) (bias x8) (masked x9 x14) (bias x10) (masked x11 x15) (bias x12)

/-- The first result array: entry (r, q) is entry q of the result row of row r. -/
def resultU (x0 : (⟨2, ![4096, 1024]⟩ : Shape).Idx → EReal) (x1 : (⟨2, ![1024, 1024]⟩ : Shape).Idx → EReal)
    (x2 : (⟨1, ![1024]⟩ : Shape).Idx → EReal) (x3 : (⟨2, ![1024, 1024]⟩ : Shape).Idx → EReal)
    (x4 : (⟨1, ![1024]⟩ : Shape).Idx → EReal) (x5 : (⟨2, ![1024, 1024]⟩ : Shape).Idx → EReal)
    (x6 : (⟨1, ![1024]⟩ : Shape).Idx → EReal) (x7 : (⟨2, ![1024, 1024]⟩ : Shape).Idx → EReal)
    (x8 : (⟨1, ![1024]⟩ : Shape).Idx → EReal) (x9 : (⟨2, ![1024, 1024]⟩ : Shape).Idx → EReal)
    (x10 : (⟨1, ![1024]⟩ : Shape).Idx → EReal) (x11 : (⟨2, ![1024, 1024]⟩ : Shape).Idx → EReal)
    (x12 : (⟨1, ![1024]⟩ : Shape).Idx → EReal) (x13 x14 x15 : (⟨2, ![1024, 1024]⟩ : Shape).Idx → EReal) :
    (⟨2, ![4096, 1024]⟩ : Shape).Idx → EReal :=
  fun i => uRow (rowOf x0 (i 0)) (mOf x0 x1 x2 x3 x4 x5 x6 x13 x14 x15 (i 0))
    (aOf x0 x7 x8 x9 x10 x11 x12 x13 x14 x15 (i 0)) (i 1)

/-- The second result array: entry (r, 0) is the log-determinant of row r. -/
def resultLd (x0 : (⟨2, ![4096, 1024]⟩ : Shape).Idx → EReal) (x7 : (⟨2, ![1024, 1024]⟩ : Shape).Idx → EReal)
    (x8 : (⟨1, ![1024]⟩ : Shape).Idx → EReal) (x9 : (⟨2, ![1024, 1024]⟩ : Shape).Idx → EReal)
    (x10 : (⟨1, ![1024]⟩ : Shape).Idx → EReal) (x11 : (⟨2, ![1024, 1024]⟩ : Shape).Idx → EReal)
    (x12 : (⟨1, ![1024]⟩ : Shape).Idx → EReal) (x13 x14 x15 : (⟨2, ![1024, 1024]⟩ : Shape).Idx → EReal) :
    (⟨2, ![4096, 1]⟩ : Shape).Idx → EReal :=
  fun i => ldRow (aOf x0 x7 x8 x9 x10 x11 x12 x13 x14 x15 (i 0))

end Cert.Spec

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibRowReduce.lean ====
/-
  Reductions along the last axis, read at a row.

  Over the extended reals a maximum reduction of an A × B matrix along its second axis is, at row p, the fold of max
  from the accumulator's value over the B entries of row p, and an add reduction is the sum of those entries; a
  host-side reduction of an N × A × B array along its last axis with a commutative associative body is, at (n, p),
  the fold from the initial value over the B entries (n, p, ·). The statements name each source index by its
  coordinates, so that a proof can rewrite the folded function entry by entry.
-/
import Idealize.ShloMosaic.PureOps.Ideal.Laws
import Idealize.ShloMosaic.Lib.ValueIdx

noncomputable section

namespace Cert.LibRowReduce

open Idealize.ShloMosaic Idealize.ShloMosaic.ValueIdx

/-- The source index over row p with last coordinate k is (p, k). -/
theorem lift_rows {A B : ℕ} (h : (⟨2, ![A, B]⟩ : Shape).Reduces [1] ⟨1, ![A]⟩) (p : Fin A) (k : Fin B) :
    h.lift (ix1 p) k = ix2 p k := by
  funext a; apply Fin.ext
  match a with
  | ⟨0, _⟩ => rfl
  | ⟨1, _⟩ => rfl

/-- A maximum reduction along the second axis, at row p: the fold of max over that row's entries. -/
theorem multiReduction_maximumf_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.maximumf.neutral .f32 hφ)
    (p : Fin A) :
    multiReduction .maximumf [1] ⟨1, ![A]⟩ src acc h hφ hacc (ix1 p)
      = (Finset.univ : Finset (Fin B)).fold max (Ideal.ofBits .f32 acc) (fun k => src (ix2 p k)) := by
  refine (Ideal.multiReduction_maximumf_single src acc h hφ hacc (ix1 p)).trans ?_
  show (Finset.univ : Finset (Fin B)).fold max (Ideal.ofBits .f32 acc) (fun k => src (h.lift (ix1 p) k)) = _
  exact congrArg (fun f => (Finset.univ : Finset (Fin B)).fold max (Ideal.ofBits .f32 acc) f)
    (funext fun k => congrArg src (lift_rows h p k))

/-- An add reduction along the second axis, at row p: the sum of that row's entries. -/
theorem multiReduction_add_rows {A B : ℕ} (src : FVec Ideal (⟨2, ![A, B]⟩ : Shape) .f32) (acc : BitVec 32)
    (h : (⟨2, ![A, B]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin B, src (ix2 p k) := by
  refine (Ideal.multiReduction_add_single src acc h hφ hacc (ix1 p)).trans ?_
  show ∑ k : Fin B, src (h.lift (ix1 p) k) = _
  exact Finset.sum_congr rfl fun k _ => congrArg src (lift_rows h p k)

/-- The source index over (n, p) with last coordinate k is (n, p, k). -/
theorem lift_last3 {N A B : ℕ} (h : (⟨3, ![N, A, B]⟩ : Shape).Reduces [2] ⟨2, ![N, A]⟩) (n : Fin N) (p : Fin A) (k : Fin B) :
    h.lift (ix2 n p) k = ix3 n p k := by
  funext a; apply Fin.ext
  match a with
  | ⟨0, _⟩ => rfl
  | ⟨1, _⟩ => rfl
  | ⟨2, _⟩ => rfl

/-- A host reduction along the last of three axes with a commutative associative body, at (n, p): the fold from the
    initial value over the entries (n, p, ·). -/
theorem hostReduce_last3 {α : Type} {N A B : ℕ} {u : Shape} (f : α → α → α) [Std.Commutative f] [Std.Associative f]
    (x : (⟨3, ![N, A, B]⟩ : Shape).Idx → α) (init : u.Idx → α)
    (h' : (⟨3, ![N, A, B]⟩ : Shape).ReducesTo [2] ⟨2, ![N, A]⟩) (h : (⟨3, ![N, A, B]⟩ : Shape).Reduces [2] ⟨2, ![N, A]⟩)
    (hu : 0 < u.numel) (n : Fin N) (p : Fin A) :
    Host.reduce f x init h' hu (ix2 n p)
      = (Finset.univ : Finset (Fin B)).fold f (init (Shape.Idx.first hu)) (fun k => x (ix3 n p k)) := by
  refine (Host.reduce_eq_fold_single f x init h' h hu (ix2 n p)).trans ?_
  show (Finset.univ : Finset (Fin B)).fold f (init (Shape.Idx.first hu)) (fun k => x (h.lift (ix2 n p) k)) = _
  exact congrArg (fun g => (Finset.univ : Finset (Fin B)).fold f (init (Shape.Idx.first hu)) g)
    (funext fun k => congrArg x (lift_last3 h n p k))

/-- The fold of max from b is at least b, so taking the maximum with b again changes nothing. -/
theorem max_fold_max_self {ι : Type} (s : Finset ι) (b : EReal) (g : ι → EReal) :
    max b (s.fold max b g) = s.fold max b g :=
  max_eq_right ((Finset.le_fold_max (s := s) (f := g) (b := b) (c := b)).2 (Or.inl le_rfl))

end Cert.LibRowReduce

end
-- ==== Proof.TileRows.lean ====
/-
  The kernel's tile computation, read one row at a time.

  On a tile of 512 rows the kernel's body applies, to the tile x and to weight matrices stored with the input index
  first (entry (k, q) is the weight from input k to output q) and biases stored as one row, the same layers as the
  row functions of the specification: a matrix product into a zero accumulator plus a broadcast bias row is, at row
  p, one layer of row p; tanh, the maximum with zero and the change of float format act entry by entry. So row p of
  each value the body computes is the corresponding row function of row p of the tile, and the two stored values are
  the result row and the log-determinant of row p.
-/
import proofs.«177884_j49890340110606_1_alg».proof.Proof.Gen.KernelIdeal.Skeleton
import proofs.«177884_j49890340110606_1_alg».proof.Proof.Spec
import proofs.«177884_j49890340110606_1_alg».proof.Proof.LibMatmul
import proofs.«177884_j49890340110606_1_alg».proof.Proof.LibKeepdims
import proofs.«177884_j49890340110606_1_alg».proof.Proof.LibRowReduce
import Idealize.ShloMosaic.Lib.ValueLayout
import Idealize.ShloMosaic.Lib.Pipeline.Value
import Idealize.ShloMosaic.PureOps.Ideal.Laws

noncomputable section

namespace Cert.TileRows

open Idealize.ShloMosaic Idealize.ShloMosaic.ValueIdx Cert.KernelIdeal Cert.KernelIdeal.Gen Cert.Spec

/-! ## The matrix product's operand indices -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## One layer on a tile -/

/-- A stored weight matrix (input index first) as the weight from input k to output q. -/
def colW (w : FVec Ideal S1024x1024 .bf16) : Fin 1024 → Fin 1024 → EReal := fun q k => w (ix2 k q)

/-- A stored bias row as a row. -/
def rowB (b : FVec Ideal S1x1024 .f32) : Row := fun q => b (ix2 (0 : Fin 1) q)

/-- One layer as the body computes it: the product of the tile with the stored matrix into a zero accumulator, plus the
    bias row broadcast over the tile's rows. -/
def tileLayer (l : FVec Ideal S512x1024 .bf16) (w : FVec Ideal S1024x1024 .bf16) (b : FVec Ideal S1x1024 .f32) :
    FVec Ideal S512x1024 .f32 :=
  addf (matmul dot_S512x1024_S1024x1024_S512x1024_1_0_0_1_n_n none l (shapeCast S1024x1024 w shapeCasts_S1024x1024_S1024x1024 : FVec Ideal S1024x1024 .bf16) (constant S512x1024 .f32 0x00000000#32))
    (broadcastTo S512x1024 (shapeCast S1x1024 b shapeCasts_S1x1024_S1x1024 : FVec Ideal S1x1024 .f32) broadcasts_S1x1024_S512x1024)

/-- Row p of a tile layer is the layer of row p. -/
theorem tileLayer_row (l : FVec Ideal S512x1024 .bf16) (w : FVec Ideal S1024x1024 .bf16) (b : FVec Ideal S1x1024 .f32)
    (p : Fin 512) : rowOf (tileLayer l w b) p = layerRow (rowOf l p) (colW w) (rowB b) := by
  funext q
  show (matmul dot_S512x1024_S1024x1024_S512x1024_1_0_0_1_n_n none l (shapeCast S1024x1024 w shapeCasts_S1024x1024_S1024x1024 : FVec Ideal S1024x1024 .bf16) (constant (F := Ideal) S512x1024 .f32 0x00000000#32)) (ix2 p q)
      + (broadcastTo S512x1024 (shapeCast S1x1024 b shapeCasts_S1x1024_S1x1024 : FVec Ideal S1x1024 .f32) broadcasts_S1x1024_S512x1024) (ix2 p q)
    = (∑ k : Fin 1024, l (ix2 p k) * w (ix2 k q)) + b (ix2 (0 : Fin 1) q)
  rw [shapeCast_self, shapeCast_self, broadcastTo_1b_ab_apply]
  exact congrArg (· + b (ix2 (0 : Fin 1) q))
    (Cert.LibMatmul.matmul_zero_ix2 dot_S512x1024_S1024x1024_S512x1024_1_0_0_1_n_n rfl rfl lhs_row lhs_contr rhs_contr rhs_col none l w p q)

/-! ## Entrywise steps at a row -/

theorem tanh_row (v : FVec Ideal S512x1024 .f32) (p : Fin 512) :
    rowOf (truncf .bf16 (tanh v) bitsLt_bf16_f32 : FVec Ideal S512x1024 .bf16) p = tanhRow (rowOf v p) := rfl

theorem relu_row (v : FVec Ideal S512x1024 .f32) (p : Fin 512) :
    rowOf (maximumf v (broadcast S512x1024 (Scalar.ofBits (F := Ideal) .f32 0x00000000#32))) p = reluRow (rowOf v p) := by
  funext k
  show max (v (ix2 p k)) (Ideal.ofBits .f32 0x00000000#32) = max (v (ix2 p k)) 0
  rw [Ideal.ofBits_zero_f32]

theorem trunc_row (v : FVec Ideal S512x1024 .f32) (p : Fin 512) :
    rowOf (truncf .bf16 v bitsLt_bf16_f32 : FVec Ideal S512x1024 .bf16) p = rowOf v p := rfl

/-! ## The body's values at a row -/

/-- The first branch's value on the tile, at row p. -/
theorem pay5_row (v0 : FVec Ideal S512x1024 .f32) (v2 : FVec Ideal S1024x1024 .bf16) (v5 : FVec Ideal S1x1024 .f32)
    (v11 : FVec Ideal S1024x1024 .bf16) (v14 : FVec Ideal S1x1024 .f32) (v20 : FVec Ideal S1024x1024 .bf16)
    (v23 : FVec Ideal S1x1024 .f32) (p : Fin 512) :
    rowOf (k0_pay5 (F := Ideal) v0 v2 v5 v11 v14 v20 v23) p
      = sRow (rowOf v0 p) (colW v2) (rowB v5) (colW v11) (rowB v14) (colW v20) (rowB v23) := by
  have e : k0_pay5 (F := Ideal) v0 v2 v5 v11 v14 v20 v23
      = tileLayer (truncf .bf16 (tanh (tileLayer (truncf .bf16 (tanh (tileLayer (truncf .bf16 v0 bitsLt_bf16_f32) v2 v5)) bitsLt_bf16_f32) v11 v14)) bitsLt_bf16_f32) v20 v23 := rfl
  rw [e, tileLayer_row, tanh_row, tileLayer_row, tanh_row, tileLayer_row, trunc_row]
  rfl

/-- The second branch's first layer on the tile, after the maximum with zero, at row p. -/
theorem pay6_row (v0 : FVec Ideal S512x1024 .f32) (v27 : FVec Ideal S1024x1024 .bf16) (v30 : FVec Ideal S1x1024 .f32)
    (p : Fin 512) :
    rowOf (k0_pay6 (F := Ideal) v0 v27 v30) p = reluRow (layerRow (rowOf v0 p) (colW v27) (rowB v30)) := by
  have e : k0_pay6 (F := Ideal) v0 v27 v30
      = maximumf (tileLayer (truncf .bf16 v0 bitsLt_bf16_f32) v27 v30) (broadcast S512x1024 (Scalar.ofBits (F := Ideal) .f32 0x00000000#32)) := rfl
  rw [e, relu_row, tileLayer_row, trunc_row]

/-- The second branch's value on the tile from its first layer's value, at row p. -/
theorem pay1_row (v35 : FVec Ideal S512x1024 .f32) (v37 : FVec Ideal S1024x1024 .bf16) (v40 : FVec Ideal S1x1024 .f32)
    (v47 : FVec Ideal S1024x1024 .bf16) (v50 : FVec Ideal S1x1024 .f32) (p : Fin 512) :
    rowOf (k0_pay1 (F := Ideal) v35 v37 v40 v47 v50) p
      = layerRow (reluRow (layerRow (rowOf v35 p) (colW v37) (rowB v40))) (colW v47) (rowB v50) := by
  have e : k0_pay1 (F := Ideal) v35 v37 v40 v47 v50
      = tileLayer (truncf .bf16 (maximumf (tileLayer (truncf .bf16 v35 bitsLt_bf16_f32) v37 v40) (broadcast S512x1024 (Scalar.ofBits (F := Ideal) .f32 0x00000000#32))) bitsLt_bf16_f32) v47 v50 := rfl
  rw [e, tileLayer_row, trunc_row, relu_row, tileLayer_row, trunc_row]

/-- The stored result value at entry (p, q): the result row of row p, from the rows of the two branches' values. -/
theorem pay2_apply (v0 : FVec Ideal S512x1024 .f32) (v26 v35 : FVec Ideal S512x1024 .f32) (v37 : FVec Ideal S1024x1024 .bf16)
    (v40 : FVec Ideal S1x1024 .f32) (v47 : FVec Ideal S1024x1024 .bf16) (v50 : FVec Ideal S1x1024 .f32)
    (p : Fin 512) (q : Fin 1024) :
    k0_pay2 (F := Ideal) v0 v26 v35 v37 v40 v47 v50 (ix2 p q)
      = uRow (rowOf v0 p) (rowOf v26 p) (rowOf (k0_pay1 (F := Ideal) v35 v37 v40 v47 v50) p) q := by
  show (v0 (ix2 p q) - v26 (ix2 p q)) * Ideal.exp (Ideal.ofBits .f32 0x00000000#32 - k0_pay1 (F := Ideal) v35 v37 v40 v47 v50 (ix2 p q))
    = (v0 (ix2 p q) - v26 (ix2 p q)) * Ideal.exp (-(k0_pay1 (F := Ideal) v35 v37 v40 v47 v50 (ix2 p q)))
  rw [Ideal.ofBits_zero_f32, zero_sub]

/-- The stored log-determinant value at entry (p, u): minus the sum of row p of the second branch's value. -/
theorem pay3_apply (v35 : FVec Ideal S512x1024 .f32) (v37 : FVec Ideal S1024x1024 .bf16) (v40 : FVec Ideal S1x1024 .f32)
    (v47 : FVec Ideal S1024x1024 .bf16) (v50 : FVec Ideal S1x1024 .f32) (p : Fin 512) (u : Fin 1) :
    k0_pay3 (F := Ideal) v35 v37 v40 v47 v50 (ix2 p u) = ldRow (rowOf (k0_pay1 (F := Ideal) v35 v37 v40 v47 v50) p) := by
  show Ideal.ofBits .f32 0x00000000#32
      - (shapeCast S512x1 (multiReduction (F := Ideal) .add [1] S512 (k0_pay1 (F := Ideal) v35 v37 v40 v47 v50) 0x00000000#32 reduces_S512x1024_S512 (.inl rfl) rfl) shapeCasts_S512_S512x1) (ix2 p u)
    = -(∑ k : Fin 1024, k0_pay1 (F := Ideal) v35 v37 v40 v47 v50 (ix2 p k))
  rw [Cert.LibKeepdims.shapeCast_a_a1_apply, Ideal.ofBits_zero_f32, zero_sub]
  exact congrArg Neg.neg (Cert.LibRowReduce.multiReduction_add_rows (k0_pay1 (F := Ideal) v35 v37 v40 v47 v50) 0x00000000#32
    reduces_S512x1024_S512 (.inl rfl) rfl p)

/-! ## The two stored values from the loaded blocks -/

/-- The stored result at entry (p, q) of the tile, from the thirteen loaded blocks. -/
theorem tileU_apply (x0 : FVec Ideal S512x1024 .f32) (x1 : FVec Ideal S1024x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x1024 .bf16) (x8 : FVec Ideal S1x1024 .f32) (x9 : FVec Ideal S1024x1024 .bf16) (x10 : FVec Ideal S1x1024 .f32)
    (x11 : FVec Ideal S1024x1024 .bf16) (x12 : FVec Ideal S1x1024 .f32) (p : Fin 512) (q : Fin 1024) :
    k0_pay2 (F := Ideal) x0 (k0_pay5 (F := Ideal) x0 x1 x2 x3 x4 x5 x6) (k0_pay6 (F := Ideal) x0 x7 x8) x9 x10 x11 x12 (ix2 p q)
      = uRow (rowOf x0 p) (sRow (rowOf x0 p) (colW x1) (rowB x2) (colW x3) (rowB x4) (colW x5) (rowB x6))
          (tRow (rowOf x0 p) (colW x7) (rowB x8) (colW x9) (rowB x10) (colW x11) (rowB x12)) q := by
  rw [pay2_apply, pay5_row, pay1_row, pay6_row]
  rfl

/-- The stored log-determinant at entry (p, u) of the tile, from the loaded blocks. -/
theorem tileLd_apply (x0 : FVec Ideal S512x1024 .f32) (x7 : FVec Ideal S1024x1024 .bf16) (x8 : FVec Ideal S1x1024 .f32)
    (x9 : FVec Ideal S1024x1024 .bf16) (x10 : FVec Ideal S1x1024 .f32) (x11 : FVec Ideal S1024x1024 .bf16) (x12 : FVec Ideal S1x1024 .f32)
    (p : Fin 512) (u : Fin 1) :
    k0_pay3 (F := Ideal) (k0_pay6 (F := Ideal) x0 x7 x8) x9 x10 x11 x12 (ix2 p u)
      = ldRow (tRow (rowOf x0 p) (colW x7) (rowB x8) (colW x9) (rowB x10) (colW x11) (rowB x12)) := by
  rw [pay3_apply, pay1_row, pay6_row]
  rfl

end Cert.TileRows

end
-- ==== Proof.TileEntry.lean ====
/-
  One entry of a tile is one entry of the whole result.

  If row p of the tile is row r of the input matrix, and the stored matrices and rows the body loads are the masked
  weights and the biases, then what the body stores at (p, q) is the specification's first array at (r, q), and what
  it stores at (p, 0) is the specification's second array at (r, 0): the row functions see only that row and those
  weights.
-/
import proofs.«177884_j49890340110606_1_alg».proof.Proof.TileRows

noncomputable section

namespace Cert.TileEntry

open Idealize.ShloMosaic Idealize.ShloMosaic.ValueIdx Cert.KernelIdeal Cert.KernelIdeal.Gen Cert.Spec Cert.TileRows

/-- The stored result at tile index j is the first array at index i, when j's row of the tile is i's row of the input
    and the two have the same column. -/
theorem u_entry (X0 : FVec Ideal S4096x1024 .f32) (A1 : FVec Ideal S1024x1024 .f32) (A2 : FVec Ideal S1024 .f32) (A3 : FVec Ideal S1024x1024 .f32) (A4 : FVec Ideal S1024 .f32) (A5 : FVec Ideal S1024x1024 .f32) (A6 : FVec Ideal S1024 .f32) (A7 : FVec Ideal S1024x1024 .f32) (A8 : FVec Ideal S1024 .f32) (A9 : FVec Ideal S1024x1024 .f32) (A10 : FVec Ideal S1024 .f32) (A11 : FVec Ideal S1024x1024 .f32) (A12 : FVec Ideal S1024 .f32) (A13 A14 A15 : FVec Ideal S1024x1024 .f32)
    (x0 : FVec Ideal S512x1024 .f32) (x1 : FVec Ideal S1024x1024 .bf16) (x2 : FVec Ideal S1x1024 .f32) (x3 : FVec Ideal S1024x1024 .bf16) (x4 : FVec Ideal S1x1024 .f32) (x5 : FVec Ideal S1024x1024 .bf16) (x6 : FVec Ideal S1x1024 .f32) (x7 : FVec Ideal S1024x1024 .bf16) (x8 : FVec Ideal S1x1024 .f32) (x9 : FVec Ideal S1024x1024 .bf16) (x10 : FVec Ideal S1x1024 .f32) (x11 : FVec Ideal S1024x1024 .bf16) (x12 : FVec Ideal S1x1024 .f32)
    (j : S512x1024.Idx) (i : S4096x1024.Idx)
    (h0 : rowOf x0 (j 0) = rowOf X0 (i 0)) (hq : (i 1).val = (j 1).val)
    (h1 : colW x1 = masked A1 A13) (h2 : rowB x2 = bias A2) (h3 : colW x3 = masked A3 A14) (h4 : rowB x4 = bias A4)
    (h5 : colW x5 = masked A5 A15) (h6 : rowB x6 = bias A6) (h7 : colW x7 = masked A7 A13) (h8 : rowB x8 = bias A8)
    (h9 : colW x9 = masked A9 A14) (h10 : rowB x10 = bias A10) (h11 : colW x11 = masked A11 A15) (h12 : rowB x12 = bias A12) :
    k0_pay2 (F := Ideal) x0 (k0_pay5 (F := Ideal) x0 x1 x2 x3 x4 x5 x6) (k0_pay6 (F := Ideal) x0 x7 x8) x9 x10 x11 x12 j
      = resultU X0 A1 A2 A3 A4 A5 A6 A7 A8 A9 A10 A11 A12 A13 A14 A15 i := by
  obtain ⟨p, q, rfl⟩ : ∃ (p : Fin 512) (q : Fin 1024), j = ix2 p q := ⟨j 0, j 1, eq_ix2 j⟩
  obtain ⟨r, q', rfl⟩ : ∃ (r : Fin 4096) (q' : Fin 1024), i = ix2 r q' := ⟨i 0, i 1, eq_ix2 i⟩
  have hqq : q' = q := Fin.ext hq
  subst hqq
  have h0' : rowOf x0 p = rowOf X0 r := h0
  rw [tileU_apply, h0', h1, h2, h3, h4, h5, h6, h7, h8, h9, h10, h11, h12]
  rfl

/-- The stored log-determinant at tile index j is the second array at index i, when j's row of the tile is i's row of
    the input. -/
theorem ld_entry (X0 : FVec Ideal S4096x1024 .f32) (A7 : FVec Ideal S1024x1024 .f32) (A8 : FVec Ideal S1024 .f32) (A9 : FVec Ideal S1024x1024 .f32) (A10 : FVec Ideal S1024 .f32) (A11 : FVec Ideal S1024x1024 .f32) (A12 : FVec Ideal S1024 .f32) (A13 A14 A15 : FVec Ideal S1024x1024 .f32)
    (x0 : FVec Ideal S512x1024 .f32) (x7 : FVec Ideal S1024x1024 .bf16) (x8 : FVec Ideal S1x1024 .f32) (x9 : FVec Ideal S1024x1024 .bf16) (x10 : FVec Ideal S1x1024 .f32) (x11 : FVec Ideal S1024x1024 .bf16) (x12 : FVec Ideal S1x1024 .f32)
    (j : S512x1.Idx) (i : S4096x1.Idx)
    (h0 : rowOf x0 (j 0) = rowOf X0 (i 0))
    (h7 : colW x7 = masked A7 A13) (h8 : rowB x8 = bias A8)
    (h9 : colW x9 = masked A9 A14) (h10 : rowB x10 = bias A10) (h11 : colW x11 = masked A11 A15) (h12 : rowB x12 = bias A12) :
    k0_pay3 (F := Ideal) (k0_pay6 (F := Ideal) x0 x7 x8) x9 x10 x11 x12 j
      = resultLd X0 A7 A8 A9 A10 A11 A12 A13 A14 A15 i := by
  obtain ⟨p, u, rfl⟩ : ∃ (p : Fin 512) (u : Fin 1), j = ix2 p u := ⟨j 0, j 1, eq_ix2 j⟩
  obtain ⟨r, u', rfl⟩ : ∃ (r : Fin 4096) (u' : Fin 1), i = ix2 r u' := ⟨i 0, i 1, eq_ix2 i⟩
  have h0' : rowOf x0 p = rowOf X0 r := h0
  rw [tileLd_apply, h0', h7, h8, h9, h10, h11, h12]
  rfl

end Cert.TileEntry

end
-- ==== Proof.HostWeights.lean ====
/-
  What the weight and bias windows hold when the kernel starts.

  Before the kernel runs, each weight matrix is multiplied by its mask entry by entry, transposed, and changed to the
  kernel's input format (the identity on extended reals): the stored matrix holds, at (k, q), the weight from input k
  to output q, that is the masked weight's entry (q, k). Each bias vector is viewed as one row. So the stored matrices
  and rows, read the way the kernel's layers read them, are the specification's masked weights and biases.
-/
import proofs.«177884_j49890340110606_1_alg».proof.Proof.Gen.KernelIdeal.Frame
import proofs.«177884_j49890340110606_1_alg».proof.Proof.TileRows
import Idealize.ShloMosaic.Lib.ValueLayout
import Idealize.ShloMosaic.Lib.StableHlo.Run

noncomputable section

namespace Cert.HostWeights

open Cert.KernelIdeal Cert.KernelIdeal.Gen Idealize.ShloMosaic Idealize.ShloMosaic.TcCoe Idealize.SL.Sem
open Idealize.ShloMosaic.ValueIdx Idealize.ShloMosaic.StableHlo Cert.Spec Cert.TileRows

/-- A weight matrix as stored for the kernel: masked, transposed, in the kernel's input format. -/
def storedW (A Mk : FVec Ideal S1024x1024 .f32) : FVec Ideal S1024x1024 .bf16 :=
  truncf .bf16 (transpose S1024x1024 [1, 0] (mulf A Mk) transposes_S1024x1024_S1024x1024_1_0) bitsLt_bf16_f32

/-- A bias vector as stored for the kernel: one row. -/
def storedB (B : FVec Ideal S1024 .f32) : FVec Ideal S1x1024 .f32 := shapeCast S1x1024 B shapeCasts_S1024_S1x1024

/-- Read as the kernel's layers read it, a stored matrix is the masked weights. -/
theorem colW_storedW (A Mk : FVec Ideal S1024x1024 .f32) : colW (storedW A Mk) = masked A Mk := by
  funext q k
  show transpose S1024x1024 [1, 0] (mulf A Mk) transposes_S1024x1024_S1024x1024_1_0 (ix2 k q) = A (ix2 q k) * Mk (ix2 q k)
  rw [transpose_ix2_apply]
  rfl

/-- Read as the kernel's layers read it, a stored row is the bias. -/
theorem rowB_storedB (B : FVec Ideal S1024 .f32) : rowB (storedB B) = bias B := by
  funext q
  show shapeCast S1x1024 B shapeCasts_S1024_S1x1024 (ix2 (0 : Fin 1) q) = B (ix1 q)
  rw [shapeCast_a_1a_apply]

variable (m : (ℓ : Loc nD τ sig) → Buf (Elt Ideal) ℓ)

/-! ## The windows' arrays when the kernel starts -/

/-- Window 1's array: the stored form of the weights `main_arg1` under the mask `main_arg13`. -/
theorem V_main_v2 (c : Dev nD) : (V m c main_v2 : S1024x1024.Idx → EReal) = storedW (m ((c : Thread nD τ).loc main_arg1)) (m ((c : Thread nD τ).loc main_arg13)) := by
  dsimp only [Gen.V, Gen.hostOps0]
  after_results
  rfl

/-- Window 3's array: the stored form of the weights `main_arg3` under the mask `main_arg14`. -/
theorem V_main_v5 (c : Dev nD) : (V m c main_v5 : S1024x1024.Idx → EReal) = storedW (m ((c : Thread nD τ).loc main_arg3)) (m ((c : Thread nD τ).loc main_arg14)) := by
  dsimp only [Gen.V, Gen.hostOps0]
  after_results
  rfl

/-- Window 5's array: the stored form of the weights `main_arg5` under the mask `main_arg15`. -/
theorem V_main_v8 (c : Dev nD) : (V m c main_v8 : S1024x1024.Idx → EReal) = storedW (m ((c : Thread nD τ).loc main_arg5)) (m ((c : Thread nD τ).loc main_arg15)) := by
  dsimp only [Gen.V, Gen.hostOps0]
  after_results
  rfl

/-- Window 7's array: the stored form of the weights `main_arg7` under the mask `main_arg13`. -/
theorem V_main_v11 (c : Dev nD) : (V m c main_v11 : S1024x1024.Idx → EReal) = storedW (m ((c : Thread nD τ).loc main_arg7)) (m ((c : Thread nD τ).loc main_arg13)) := by
  dsimp only [Gen.V, Gen.hostOps0]
  after_results
  rfl

/-- Window 9's array: the stored form of the weights `main_arg9` under the mask `main_arg14`. -/
theorem V_main_v14 (c : Dev nD) : (V m c main_v14 : S1024x1024.Idx → EReal) = storedW (m ((c : Thread nD τ).loc main_arg9)) (m ((c : Thread nD τ).loc main_arg14)) := by
  dsimp only [Gen.V, Gen.hostOps0]
  after_results
  rfl

/-- Window 11's array: the stored form of the weights `main_arg11` under the mask `main_arg15`. -/
theorem V_main_v17 (c : Dev nD) : (V m c main_v17 : S1024x1024.Idx → EReal) = storedW (m ((c : Thread nD τ).loc main_arg11)) (m ((c : Thread nD τ).loc main_arg15)) := by
  dsimp only [Gen.V, Gen.hostOps0]
  after_results
  rfl

/-- Window 2's array: the stored form of the bias `main_arg2`. -/
theorem V_main_v18 (c : Dev nD) : (V m c main_v18 : S1x1024.Idx → EReal) = storedB (m ((c : Thread nD τ).loc main_arg2)) := by
  dsimp only [Gen.V, Gen.hostOps0]
  after_results
  rfl

/-- Window 4's array: the stored form of the bias `main_arg4`. -/
theorem V_main_v19 (c : Dev nD) : (V m c main_v19 : S1x1024.Idx → EReal) = storedB (m ((c : Thread nD τ).loc main_arg4)) := by
  dsimp only [Gen.V, Gen.hostOps0]
  after_results
  rfl

/-- Window 6's array: the stored form of the bias `main_arg6`. -/
theorem V_main_v20 (c : Dev nD) : (V m c main_v20 : S1x1024.Idx → EReal) = storedB (m ((c : Thread nD τ).loc main_arg6)) := by
  dsimp only [Gen.V, Gen.hostOps0]
  after_results
  rfl

/-- Window 8's array: the stored form of the bias `main_arg8`. -/
theorem V_main_v21 (c : Dev nD) : (V m c main_v21 : S1x1024.Idx → EReal) = storedB (m ((c : Thread nD τ).loc main_arg8)) := by
  dsimp only [Gen.V, Gen.hostOps0]
  after_results
  rfl

/-- Window 10's array: the stored form of the bias `main_arg10`. -/
theorem V_main_v22 (c : Dev nD) : (V m c main_v22 : S1x1024.Idx → EReal) = storedB (m ((c : Thread nD τ).loc main_arg10)) := by
  dsimp only [Gen.V, Gen.hostOps0]
  after_results
  rfl

/-- Window 12's array: the stored form of the bias `main_arg12`. -/
theorem V_main_v23 (c : Dev nD) : (V m c main_v23 : S1x1024.Idx → EReal) = storedB (m ((c : Thread nD τ).loc main_arg12)) := by
  dsimp only [Gen.V, Gen.hostOps0]
  after_results
  rfl

end Cert.HostWeights

end
-- ==== Proof.Blocks.lean ====
/-
  From tiles to the two result arrays.

  The kernel runs once per tile of 512 rows: point t loads rows 512 t … 512 t + 511 of the input matrix and the whole
  of every stored weight matrix and bias row, and writes back rows 512 t … 512 t + 511 of the two results. By the
  tile-entry lemmas what it writes back is that block of the specification's arrays; the eight blocks cover all 4096
  rows, so after the run the two result arrays are the specification's arrays of the argument arrays.
-/
import proofs.«177884_j49890340110606_1_alg».proof.Proof.Gen.KernelIdeal.Value
import proofs.«177884_j49890340110606_1_alg».proof.Proof.TileEntry
import proofs.«177884_j49890340110606_1_alg».proof.Proof.HostWeights

noncomputable section

namespace Cert.Blocks

open Cert.KernelIdeal Cert.KernelIdeal.Gen Idealize.ShloMosaic Idealize.ShloMosaic.TcCoe Idealize.SL.Sem
open Idealize.ShloMosaic.ValueIdx Cert.Spec Cert.TileRows Cert.HostWeights Cert.TileEntry
open Idealize.ShloMosaic.Pipeline (Dat)

variable (m : (ℓ : Loc nD τ sig) → Buf (Elt Ideal) ℓ) (ρ : Dev nD → PrngReg)

/-- The first result array of core c, from its argument arrays. -/
def finalU (c : Dev nD) : S4096x1024.Idx → EReal := resultU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The second result array of core c, from its argument arrays. -/
def finalLd (c : Dev nD) : S4096x1.Idx → EReal := resultLd (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem origin : (![0, 0] : Fin 2 → Nat) = fun _ => 0 := funext fun a => by fin_cases a <;> rfl

/-! ## Where each point's blocks lie -/

/-- The input tile and the two output tiles of point t are at the same block row, in block column 0. -/
theorem idx_moving : ∀ t : Fin cfg0.N,
    win0_0.index t (0 : Fin 2) = win0_13.index t (0 : Fin 2) ∧ win0_0.index t (1 : Fin 2) = 0
    ∧ win0_13.index t (1 : Fin 2) = 0
    ∧ win0_14.index t (0 : Fin 2) = win0_13.index t (0 : Fin 2) ∧ win0_14.index t (1 : Fin 2) = 0
    ∧ win0_13.index t (0 : Fin 2) ≤ 7 :=
  (by decide +kernel : ∀ t : Fin grid0.N, _)

/-- Every weight and bias window stays at block (0, 0). -/
theorem idx_fixed : ∀ t : Fin cfg0.N, ∀ a : Fin 2,
    win0_1.index t a = 0 ∧ win0_2.index t a = 0 ∧ win0_3.index t a = 0 ∧ win0_4.index t a = 0
    ∧ win0_5.index t a = 0 ∧ win0_6.index t a = 0 ∧ win0_7.index t a = 0 ∧ win0_8.index t a = 0
    ∧ win0_9.index t a = 0 ∧ win0_10.index t a = 0 ∧ win0_11.index t a = 0 ∧ win0_12.index t a = 0 :=
  (by decide +kernel : ∀ t : Fin grid0.N, _)

/-- Every block row is some point's. -/
theorem idx_onto : ∀ q0 : Fin 8, ∃ t : Fin cfg0.N, win0_13.index t = ![q0.val, 0] ∧ win0_14.index t = ![q0.val, 0] :=
  (by decide +kernel : ∀ q0 : Fin 8, ∃ t : Fin grid0.N, win0_13.index t = ![q0.val, 0] ∧ win0_14.index t = ![q0.val, 0])

/-! ## What each input window's block holds -/

/-- Row j0 of the input tile at point t is row i0 of the input matrix when i0 = 512 · (the point's block row) + j0. -/
theorem x_row (c : Dev nD) (t : Fin cfg0.N) (j0 : Fin 512) (i0 : Fin 4096)
    (h : i0.val = win0_13.index t (0 : Fin 2) * 512 + j0.val) :
    rowOf (iblk m c 0 t : S512x1024.Idx → EReal) j0 = rowOf (m ((c : Thread nD τ).loc main_arg0)) i0 := by
  funext k
  show V m c main_arg0 (((cfg0.win 0).blk t).view.emb (ix2 j0 k)) = ((m ((c : Thread nD τ).loc main_arg0)) : S4096x1024.Idx → EReal) (ix2 i0 k)
  rw [V_main_arg0]
  refine congrArg _ (funext fun a => Fin.ext ?_)
  obtain ⟨e0, e1, -⟩ := idx_moving t
  match a with
  | ⟨0, _⟩ => show win0_0.index t (0 : Fin 2) * 512 + 1 * j0.val = i0.val; omega
  | ⟨1, _⟩ => show win0_0.index t (1 : Fin 2) * 1024 + 1 * k.val = k.val; omega

/-- Window 1's block at any point is its whole array: the masked weights, read as the layers read them. -/
theorem w1_blk (c : Dev nD) (t : Fin cfg0.N) :
    colW (iblk m c 1 t) = masked (m ((c : Thread nD τ).loc main_arg1)) (m ((c : Thread nD τ).loc main_arg13)) := by
  have e : (iblk m c 1 t : S1024x1024.Idx → EReal) = V m c main_v2 := funext fun y => by
    show V m c main_v2 (((cfg0.win 1).blk t).view.emb y) = V m c main_v2 y
    refine congrArg _ (funext fun a => Fin.ext ?_)
    match a with
    | ⟨0, _⟩ => show win0_1.index t (0 : Fin 2) * 1024 + 1 * (y 0).val = (y 0).val; have := (idx_fixed t 0).1; omega
    | ⟨1, _⟩ => show win0_1.index t (1 : Fin 2) * 1024 + 1 * (y 1).val = (y 1).val; have := (idx_fixed t 1).1; omega
  rw [e, V_main_v2 m c, colW_storedW]

/-- Window 3's block at any point is its whole array: the masked weights, read as the layers read them. -/
theorem w3_blk (c : Dev nD) (t : Fin cfg0.N) :
    colW (iblk m c 3 t) = masked (m ((c : Thread nD τ).loc main_arg3)) (m ((c : Thread nD τ).loc main_arg14)) := by
  have e : (iblk m c 3 t : S1024x1024.Idx → EReal) = V m c main_v5 := funext fun y => by
    show V m c main_v5 (((cfg0.win 3).blk t).view.emb y) = V m c main_v5 y
    refine congrArg _ (funext fun a => Fin.ext ?_)
    match a with
    | ⟨0, _⟩ => show win0_3.index t (0 : Fin 2) * 1024 + 1 * (y 0).val = (y 0).val; have := (idx_fixed t 0).2.2.1; omega
    | ⟨1, _⟩ => show win0_3.index t (1 : Fin 2) * 1024 + 1 * (y 1).val = (y 1).val; have := (idx_fixed t 1).2.2.1; omega
  rw [e, V_main_v5 m c, colW_storedW]

/-- Window 5's block at any point is its whole array: the masked weights, read as the layers read them. -/
theorem w5_blk (c : Dev nD) (t : Fin cfg0.N) :
    colW (iblk m c 5 t) = masked (m ((c : Thread nD τ).loc main_arg5)) (m ((c : Thread nD τ).loc main_arg15)) := by
  have e : (iblk m c 5 t : S1024x1024.Idx → EReal) = V m c main_v8 := funext fun y => by
    show V m c main_v8 (((cfg0.win 5).blk t).view.emb y) = V m c main_v8 y
    refine congrArg _ (funext fun a => Fin.ext ?_)
    match a with
    | ⟨0, _⟩ => show win0_5.index t (0 : Fin 2) * 1024 + 1 * (y 0).val = (y 0).val; have := (idx_fixed t 0).2.2.2.2.1; omega
    | ⟨1, _⟩ => show win0_5.index t (1 : Fin 2) * 1024 + 1 * (y 1).val = (y 1).val; have := (idx_fixed t 1).2.2.2.2.1; omega
  rw [e, V_main_v8 m c, colW_storedW]

/-- Window 7's block at any point is its whole array: the masked weights, read as the layers read them. -/
theorem w7_blk (c : Dev nD) (t : Fin cfg0.N) :
    colW (iblk m c 7 t) = masked (m ((c : Thread nD τ).loc main_arg7)) (m ((c : Thread nD τ).loc main_arg13)) := by
  have e : (iblk m c 7 t : S1024x1024.Idx → EReal) = V m c main_v11 := funext fun y => by
    show V m c main_v11 (((cfg0.win 7).blk t).view.emb y) = V m c main_v11 y
    refine congrArg _ (funext fun a => Fin.ext ?_)
    match a with
    | ⟨0, _⟩ => show win0_7.index t (0 : Fin 2) * 1024 + 1 * (y 0).val = (y 0).val; have := (idx_fixed t 0).2.2.2.2.2.2.1; omega
    | ⟨1, _⟩ => show win0_7.index t (1 : Fin 2) * 1024 + 1 * (y 1).val = (y 1).val; have := (idx_fixed t 1).2.2.2.2.2.2.1; omega
  rw [e, V_main_v11 m c, colW_storedW]

/-- Window 9's block at any point is its whole array: the masked weights, read as the layers read them. -/
theorem w9_blk (c : Dev nD) (t : Fin cfg0.N) :
    colW (iblk m c 9 t) = masked (m ((c : Thread nD τ).loc main_arg9)) (m ((c : Thread nD τ).loc main_arg14)) := by
  have e : (iblk m c 9 t : S1024x1024.Idx → EReal) = V m c main_v14 := funext fun y => by
    show V m c main_v14 (((cfg0.win 9).blk t).view.emb y) = V m c main_v14 y
    refine congrArg _ (funext fun a => Fin.ext ?_)
    match a with
    | ⟨0, _⟩ => show win0_9.index t (0 : Fin 2) * 1024 + 1 * (y 0).val = (y 0).val; have := (idx_fixed t 0).2.2.2.2.2.2.2.2.1; omega
    | ⟨1, _⟩ => show win0_9.index t (1 : Fin 2) * 1024 + 1 * (y 1).val = (y 1).val; have := (idx_fixed t 1).2.2.2.2.2.2.2.2.1; omega
  rw [e, V_main_v14 m c, colW_storedW]

/-- Window 11's block at any point is its whole array: the masked weights, read as the layers read them. -/
theorem w11_blk (c : Dev nD) (t : Fin cfg0.N) :
    colW (iblk m c 11 t) = masked (m ((c : Thread nD τ).loc main_arg11)) (m ((c : Thread nD τ).loc main_arg15)) := by
  have e : (iblk m c 11 t : S1024x1024.Idx → EReal) = V m c main_v17 := funext fun y => by
    show V m c main_v17 (((cfg0.win 11).blk t).view.emb y) = V m c main_v17 y
    refine congrArg _ (funext fun a => Fin.ext ?_)
    match a with
    | ⟨0, _⟩ => show win0_11.index t (0 : Fin 2) * 1024 + 1 * (y 0).val = (y 0).val; have := (idx_fixed t 0).2.2.2.2.2.2.2.2.2.2.1; omega
    | ⟨1, _⟩ => show win0_11.index t (1 : Fin 2) * 1024 + 1 * (y 1).val = (y 1).val; have := (idx_fixed t 1).2.2.2.2.2.2.2.2.2.2.1; omega
  rw [e, V_main_v17 m c, colW_storedW]

/-- Window 2's block at any point is its whole array: the bias, read as the layers read it. -/
theorem b2_blk (c : Dev nD) (t : Fin cfg0.N) :
    rowB (iblk m c 2 t) = bias (m ((c : Thread nD τ).loc main_arg2)) := by
  have e : (iblk m c 2 t : S1x1024.Idx → EReal) = V m c main_v18 := funext fun y => by
    show V m c main_v18 (((cfg0.win 2).blk t).view.emb y) = V m c main_v18 y
    refine congrArg _ (funext fun a => Fin.ext ?_)
    match a with
    | ⟨0, _⟩ => show win0_2.index t (0 : Fin 2) * 1 + 1 * (y 0).val = (y 0).val; have := (idx_fixed t 0).2.1; omega
    | ⟨1, _⟩ => show win0_2.index t (1 : Fin 2) * 1024 + 1 * (y 1).val = (y 1).val; have := (idx_fixed t 1).2.1; omega
  rw [e, V_main_v18 m c, rowB_storedB]

/-- Window 4's block at any point is its whole array: the bias, read as the layers read it. -/
theorem b4_blk (c : Dev nD) (t : Fin cfg0.N) :
    rowB (iblk m c 4 t) = bias (m ((c : Thread nD τ).loc main_arg4)) := by
  have e : (iblk m c 4 t : S1x1024.Idx → EReal) = V m c main_v19 := funext fun y => by
    show V m c main_v19 (((cfg0.win 4).blk t).view.emb y) = V m c main_v19 y
    refine congrArg _ (funext fun a => Fin.ext ?_)
    match a with
    | ⟨0, _⟩ => show win0_4.index t (0 : Fin 2) * 1 + 1 * (y 0).val = (y 0).val; have := (idx_fixed t 0).2.2.2.1; omega
    | ⟨1, _⟩ => show win0_4.index t (1 : Fin 2) * 1024 + 1 * (y 1).val = (y 1).val; have := (idx_fixed t 1).2.2.2.1; omega
  rw [e, V_main_v19 m c, rowB_storedB]

/-- Window 6's block at any point is its whole array: the bias, read as the layers read it. -/
theorem b6_blk (c : Dev nD) (t : Fin cfg0.N) :
    rowB (iblk m c 6 t) = bias (m ((c : Thread nD τ).loc main_arg6)) := by
  have e : (iblk m c 6 t : S1x1024.Idx → EReal) = V m c main_v20 := funext fun y => by
    show V m c main_v20 (((cfg0.win 6).blk t).view.emb y) = V m c main_v20 y
    refine congrArg _ (funext fun a => Fin.ext ?_)
    match a with
    | ⟨0, _⟩ => show win0_6.index t (0 : Fin 2) * 1 + 1 * (y 0).val = (y 0).val; have := (idx_fixed t 0).2.2.2.2.2.1; omega
    | ⟨1, _⟩ => show win0_6.index t (1 : Fin 2) * 1024 + 1 * (y 1).val = (y 1).val; have := (idx_fixed t 1).2.2.2.2.2.1; omega
  rw [e, V_main_v20 m c, rowB_storedB]

/-- Window 8's block at any point is its whole array: the bias, read as the layers read it. -/
theorem b8_blk (c : Dev nD) (t : Fin cfg0.N) :
    rowB (iblk m c 8 t) = bias (m ((c : Thread nD τ).loc main_arg8)) := by
  have e : (iblk m c 8 t : S1x1024.Idx → EReal) = V m c main_v21 := funext fun y => by
    show V m c main_v21 (((cfg0.win 8).blk t).view.emb y) = V m c main_v21 y
    refine congrArg _ (funext fun a => Fin.ext ?_)
    match a with
    | ⟨0, _⟩ => show win0_8.index t (0 : Fin 2) * 1 + 1 * (y 0).val = (y 0).val; have := (idx_fixed t 0).2.2.2.2.2.2.2.1; omega
    | ⟨1, _⟩ => show win0_8.index t (1 : Fin 2) * 1024 + 1 * (y 1).val = (y 1).val; have := (idx_fixed t 1).2.2.2.2.2.2.2.1; omega
  rw [e, V_main_v21 m c, rowB_storedB]

/-- Window 10's block at any point is its whole array: the bias, read as the layers read it. -/
theorem b10_blk (c : Dev nD) (t : Fin cfg0.N) :
    rowB (iblk m c 10 t) = bias (m ((c : Thread nD τ).loc main_arg10)) := by
  have e : (iblk m c 10 t : S1x1024.Idx → EReal) = V m c main_v22 := funext fun y => by
    show V m c main_v22 (((cfg0.win 10).blk t).view.emb y) = V m c main_v22 y
    refine congrArg _ (funext fun a => Fin.ext ?_)
    match a with
    | ⟨0, _⟩ => show win0_10.index t (0 : Fin 2) * 1 + 1 * (y 0).val = (y 0).val; have := (idx_fixed t 0).2.2.2.2.2.2.2.2.2.1; omega
    | ⟨1, _⟩ => show win0_10.index t (1 : Fin 2) * 1024 + 1 * (y 1).val = (y 1).val; have := (idx_fixed t 1).2.2.2.2.2.2.2.2.2.1; omega
  rw [e, V_main_v22 m c, rowB_storedB]

/-- Window 12's block at any point is its whole array: the bias, read as the layers read it. -/
theorem b12_blk (c : Dev nD) (t : Fin cfg0.N) :
    rowB (iblk m c 12 t) = bias (m ((c : Thread nD τ).loc main_arg12)) := by
  have e : (iblk m c 12 t : S1x1024.Idx → EReal) = V m c main_v23 := funext fun y => by
    show V m c main_v23 (((cfg0.win 12).blk t).view.emb y) = V m c main_v23 y
    refine congrArg _ (funext fun a => Fin.ext ?_)
    match a with
    | ⟨0, _⟩ => show win0_12.index t (0 : Fin 2) * 1 + 1 * (y 0).val = (y 0).val; have := (idx_fixed t 0).2.2.2.2.2.2.2.2.2.2.2; omega
    | ⟨1, _⟩ => show win0_12.index t (1 : Fin 2) * 1024 + 1 * (y 1).val = (y 1).val; have := (idx_fixed t 1).2.2.2.2.2.2.2.2.2.2.2; omega
  rw [e, V_main_v23 m c, rowB_storedB]

/-! ## What each point writes back -/

/-- Point t writes back its block of the first array. -/
theorem flushed13_eq (c : Dev nD) (t : Fin cfg0.N) :
    (dats m 0 c).flushed 13 t = ((cfg0.win 13).blk t).view.read (Elt Ideal) (finalU m c) := by
  rw [Cert.KernelIdeal.Value.flushed13 m c t]
  unfold out0_13
  rw [View.canon_unit_zero origin]
  simp only [View.ld_unit_zero (S := S512x1024) origin, View.ld_unit_zero (S := S1024x1024) origin, View.ld_unit_zero (S := S1x1024) origin]
  funext j
  show k0_pay2 (F := Ideal) (iblk m c 0 t) (k0_pay5 (F := Ideal) (iblk m c 0 t) (iblk m c 1 t) (iblk m c 2 t) (iblk m c 3 t) (iblk m c 4 t) (iblk m c 5 t) (iblk m c 6 t)) (k0_pay6 (F := Ideal) (iblk m c 0 t) (iblk m c 7 t) (iblk m c 8 t)) (iblk m c 9 t) (iblk m c 10 t) (iblk m c 11 t) (iblk m c 12 t) j
    = finalU m c (((cfg0.win 13).blk t).view.emb j)
  obtain ⟨-, -, e2, -, -, -⟩ := idx_moving t
  exact u_entry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j (((cfg0.win 13).blk t).view.emb j)
    (x_row m c t (j 0) ((((cfg0.win 13).blk t).view.emb j) 0) (by
      show win0_13.index t (0 : Fin 2) * 512 + 1 * (j 0).val = win0_13.index t (0 : Fin 2) * 512 + (j 0).val; omega))
    (by show win0_13.index t (1 : Fin 2) * 1024 + 1 * (j 1).val = (j 1).val; omega)
    (w1_blk m c t) (b2_blk m c t) (w3_blk m c t) (b4_blk m c t) (w5_blk m c t) (b6_blk m c t)
    (w7_blk m c t) (b8_blk m c t) (w9_blk m c t) (b10_blk m c t) (w11_blk m c t) (b12_blk m c t)

/-- Point t writes back its block of the second array. -/
theorem flushed14_eq (c : Dev nD) (t : Fin cfg0.N) :
    (dats m 0 c).flushed 14 t = ((cfg0.win 14).blk t).view.read (Elt Ideal) (finalLd m c) := by
  rw [Cert.KernelIdeal.Value.flushed14 m c t]
  unfold out0_14
  rw [View.canon_unit_zero origin]
  simp only [View.ld_unit_zero (S := S512x1024) origin, View.ld_unit_zero (S := S1024x1024) origin, View.ld_unit_zero (S := S1x1024) origin]
  funext j
  show k0_pay3 (F := Ideal) (k0_pay6 (F := Ideal) (iblk m c 0 t) (iblk m c 7 t) (iblk m c 8 t)) (iblk m c 9 t) (iblk m c 10 t) (iblk m c 11 t) (iblk m c 12 t) j
    = finalLd m c (((cfg0.win 14).blk t).view.emb j)
  obtain ⟨-, -, -, e3, -, -⟩ := idx_moving t
  exact ld_entry (m ((c : Thread nD τ).loc main_arg0)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    (iblk m c 0 t) (iblk m c 7 t) (iblk m c 8 t) (iblk m c 9 t) (iblk m c 10 t) (iblk m c 11 t) (iblk m c 12 t) j (((cfg0.win 14).blk t).view.emb j)
    (x_row m c t (j 0) ((((cfg0.win 14).blk t).view.emb j) 0) (by
      show win0_14.index t (0 : Fin 2) * 512 + 1 * (j 0).val = win0_13.index t (0 : Fin 2) * 512 + (j 0).val; omega))
    (w7_blk m c t) (b8_blk m c t) (w9_blk m c t) (b10_blk m c t) (w11_blk m c t) (b12_blk m c t)

/-! ## The blocks cover the arrays -/

theorem mem_blk13 (t : Fin cfg0.N) (i : S4096x1024.Idx) :
    i ∈ ((cfg0.win 13).blk t).view.set ↔ ∀ a : Fin 2, win0_13.index t a * S512x1024.size a ≤ (i a).val ∧ (i a).val < win0_13.index t a * S512x1024.size a + S512x1024.size a := by
  show i ∈ ((View.whole main_v24_0).slice (win0_13.rect t)).set ↔ _
  rw [View.set_slice_whole, Rect.mem_set_unit]
  exact Iff.rfl

theorem mem_blk14 (t : Fin cfg0.N) (i : S4096x1.Idx) :
    i ∈ ((cfg0.win 14).blk t).view.set ↔ ∀ a : Fin 2, win0_14.index t a * S512x1.size a ≤ (i a).val ∧ (i a).val < win0_14.index t a * S512x1.size a + S512x1.size a := by
  show i ∈ ((View.whole main_v24_1).slice (win0_14.rect t)).set ↔ _
  rw [View.set_slice_whole, Rect.mem_set_unit]
  exact Iff.rfl

/-- Row r of the first array is in the block of the point whose block row is r / 512. -/
theorem cover13 (i : S4096x1024.Idx) :
    ∃ t : Fin cfg0.N, (cfg0.win 13).flush t = true ∧ i ∈ ((cfg0.win 13).blk t).view.set := by
  have hi0 : (i 0).val < 4096 := (i 0).isLt
  have hi1 : (i 1).val < 1024 := (i 1).isLt
  obtain ⟨t, ht, -⟩ := idx_onto ⟨(i 0).val / 512, by omega⟩
  have q0 : win0_13.index t (0 : Fin 2) = (i 0).val / 512 := congrFun ht 0
  have q1 : win0_13.index t (1 : Fin 2) = 0 := congrFun ht 1
  refine ⟨t, flush0_13 t, ?_⟩
  rw [mem_blk13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 1024 ≤ (i 1).val ∧ (i 1).val < win0_13.index t (1 : Fin 2) * 1024 + 1024; omega

/-- Row r of the second array is in the block of the point whose block row is r / 512. -/
theorem cover14 (i : S4096x1.Idx) :
    ∃ t : Fin cfg0.N, (cfg0.win 14).flush t = true ∧ i ∈ ((cfg0.win 14).blk t).view.set := by
  have hi0 : (i 0).val < 4096 := (i 0).isLt
  have hi1 : (i 1).val < 1 := (i 1).isLt
  obtain ⟨t, -, ht⟩ := idx_onto ⟨(i 0).val / 512, by omega⟩
  have q0 : win0_14.index t (0 : Fin 2) = (i 0).val / 512 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 512 ≤ (i 0).val ∧ (i 0).val < win0_14.index t (0 : Fin 2) * 512 + 512; omega
  | ⟨1, _⟩ => show win0_14.index t (1 : Fin 2) * 1 ≤ (i 1).val ∧ (i 1).val < win0_14.index t (1 : Fin 2) * 1 + 1; omega

/-! ## The arrays after the run -/

theorem final13 (c : Dev nD) : (dats m 0 c).arrAt 13 cfg0.N = finalU m c :=
  (dats m 0 c).arrAt_eq_of_cover 13 (finalU m c) (fun t _ => flushed13_eq m c t) cover13

theorem final14 (c : Dev nD) : (dats m 0 c).arrAt 14 cfg0.N = finalLd m c :=
  (dats m 0 c).arrAt_eq_of_cover 14 (finalLd m c) (fun t _ => flushed14_eq m c t) cover14

/-- The kernel's run: both result arrays end at the specification's arrays of the argument arrays, which end unchanged. -/
theorem run : θ_run defs (onTc (τ := τ) (main (F := Ideal))) ⟨m, fun _ => 0, ρ⟩ fun r => ∀ c : Dev nD,
      r.2.mem ((c : Thread nD τ).loc main_v24_0) = finalU m c
      ∧ r.2.mem ((c : Thread nD τ).loc main_v24_1) = finalLd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final13 m c), (h c).2.1.trans (final14 m c), (h c).2.2⟩)
    (Cert.KernelIdeal.Value.run_blocks m ρ)

end Cert.Blocks

end
-- ==== Proof.RefRows.lean ====
/-
  The reference program's two results are the specification's two arrays.

  The reference multiplies each weight matrix by its mask, contracts the input (or the previous layer's value) with
  it along the input index of both, adds the bias broadcast over the rows, and applies tanh or the maximum with zero:
  at row r each such step is one layer of the specification on row r. Its first result is (x − m) · exp (−a) entry
  by entry and its second is minus the sum of each row of a, kept as a column: the specification's two arrays.
-/
import proofs.«177884_j49890340110606_1_alg».proof.Proof.Gen.ReferenceIdeal.Read
import proofs.«177884_j49890340110606_1_alg».proof.Proof.Spec
import Idealize.ShloMosaic.PureOps.Ideal.Laws

noncomputable section

namespace Cert.RefRows

open Idealize.ShloMosaic Idealize.ShloMosaic.ValueIdx Cert.ReferenceIdeal Cert.ReferenceIdeal.Gen Cert.ReferenceIdeal.Read Cert.Spec

/-- One layer of the reference (the contraction with the masked weights plus the broadcast bias), at row r, is the
    specification's layer of row r of its left operand. -/
theorem layer_row (l : FVec Ideal S4096x1024 .f32) (w : FVec Ideal S1024x1024 .f32) (b : FVec Ideal S1024 .f32) (mk : FVec Ideal S1024x1024 .f32) (r : Fin 4096) :
    rowOf (val_main_v4 (F := Ideal) l w b mk) r = layerRow (rowOf l r) (masked w mk) (bias b) := by
  funext q
  show val_main_v4 (F := Ideal) l w b mk (ix2 r q) = (∑ k : Fin 1024, l (ix2 r k) * (w (ix2 q k) * mk (ix2 q k))) + b (ix1 q)
  rw [val_main_v4_apply, val_main_v1_apply, val_main_v3_apply, val_main_v2_apply]
  have el : ∀ k : Fin 1024, lidx_main_v1 (ix2 r q) k = ix2 r k := fun k => funext fun a => Fin.ext (by
    match a with | ⟨0, _⟩ => rfl | ⟨1, _⟩ => rfl)
  have er : ∀ k : Fin 1024, ridx_main_v1 (ix2 r q) k = ix2 q k := fun k => funext fun a => Fin.ext (by
    match a with | ⟨0, _⟩ => rfl | ⟨1, _⟩ => rfl)
  have eb : idx_main_v2 (idx_main_v3 (ix2 r q)) = ix1 q := funext fun a => Fin.ext (by
    match a with | ⟨0, _⟩ => rfl)
  simp only [el, er, eb]
  rfl

/-- The host's tanh acts entry by entry. -/
theorem tanh_row (v : FVec Ideal S4096x1024 .f32) (r : Fin 4096) : rowOf (Host.tanh (F := Ideal) (φ := .f32) v) r = tanhRow (rowOf v r) := rfl

/-- The maximum with the broadcast zero constant is the maximum with zero, entry by entry. -/
theorem relu_row (v : FVec Ideal S4096x1024 .f32) (r : Fin 4096) :
    rowOf (maximumf (F := Ideal) (φ := .f32) v (broadcastInDim S4096x1024 ![] bcast_S_S4096x1024 (constant (F := Ideal) S_ .f32 0x00000000#32))) r
      = reluRow (rowOf v r) := by
  funext k
  show max (v (ix2 r k)) (val_main_call0_v0 (F := Ideal) (ix2 r k)) = max (v (ix2 r k)) 0
  rw [val_main_call0_v0_apply, val_main_call0_cst_apply]
  show max (v (ix2 r k)) (Ideal.ofBits .f32 0x00000000#32) = max (v (ix2 r k)) 0
  rw [Ideal.ofBits_zero_f32]

/-- Row r of the reference's first branch. -/
theorem m_row (x0 : FVec Ideal S4096x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (x13 x14 x15 : FVec Ideal S1024x1024 .f32) (r : Fin 4096) :
    rowOf (val_main_v16 (F := Ideal) x0 x1 x2 x3 x4 x5 x6 x13 x14 x15) r = mOf x0 x1 x2 x3 x4 x5 x6 x13 x14 x15 r := by
  have e : val_main_v16 (F := Ideal) x0 x1 x2 x3 x4 x5 x6 x13 x14 x15
      = val_main_v4 (F := Ideal) (Host.tanh (F := Ideal) (φ := .f32) (val_main_v4 (F := Ideal) (Host.tanh (F := Ideal) (φ := .f32) (val_main_v4 (F := Ideal) x0 x1 x2 x13)) x3 x4 x14)) x5 x6 x15 := rfl
  rw [e, layer_row, tanh_row, layer_row, tanh_row, layer_row]
  rfl

/-- Row r of the reference's second branch. -/
theorem a_row (x0 : FVec Ideal S4096x1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 x14 x15 : FVec Ideal S1024x1024 .f32) (r : Fin 4096) :
    rowOf (val_main_v33 (F := Ideal) x0 x7 x8 x9 x10 x11 x12 x13 x14 x15) r = aOf x0 x7 x8 x9 x10 x11 x12 x13 x14 x15 r := by
  have e : val_main_v33 (F := Ideal) x0 x7 x8 x9 x10 x11 x12 x13 x14 x15
      = val_main_v4 (F := Ideal) (maximumf (F := Ideal) (φ := .f32) (val_main_v4 (F := Ideal) (maximumf (F := Ideal) (φ := .f32) (val_main_v4 (F := Ideal) x0 x7 x8 x13)
          (broadcastInDim S4096x1024 ![] bcast_S_S4096x1024 (constant (F := Ideal) S_ .f32 0x00000000#32))) x9 x10 x14)
          (broadcastInDim S4096x1024 ![] bcast_S_S4096x1024 (constant (F := Ideal) S_ .f32 0x00000000#32))) x11 x12 x15 := rfl
  rw [e, layer_row, relu_row, layer_row, relu_row, layer_row]
  rfl

/-- The reference's first result is the specification's first array. -/
theorem result_u (x0 : FVec Ideal S4096x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 x14 x15 : FVec Ideal S1024x1024 .f32) :
    val_main_v37 (F := Ideal) x0 x1 x2 x3 x4 x5 x6 x7 x8 x9 x10 x11 x12 x13 x14 x15 = resultU x0 x1 x2 x3 x4 x5 x6 x7 x8 x9 x10 x11 x12 x13 x14 x15 := by
  funext i
  obtain ⟨r, q, rfl⟩ : ∃ (r : Fin 4096) (q : Fin 1024), i = ix2 r q := ⟨i 0, i 1, eq_ix2 i⟩
  show val_main_v37 (F := Ideal) x0 x1 x2 x3 x4 x5 x6 x7 x8 x9 x10 x11 x12 x13 x14 x15 (ix2 r q)
    = uRow (rowOf x0 r) (mOf x0 x1 x2 x3 x4 x5 x6 x13 x14 x15 r) (aOf x0 x7 x8 x9 x10 x11 x12 x13 x14 x15 r) q
  rw [← m_row, ← a_row]
  rfl

/-- The reference's second result is the specification's second array. -/
theorem result_ld (x0 : FVec Ideal S4096x1024 .f32) (x7 : FVec Ideal S1024x1024 .f32) (x8 : FVec Ideal S1024 .f32) (x9 : FVec Ideal S1024x1024 .f32) (x10 : FVec Ideal S1024 .f32) (x11 : FVec Ideal S1024x1024 .f32) (x12 : FVec Ideal S1024 .f32) (x13 x14 x15 : FVec Ideal S1024x1024 .f32) :
    val_main_v40 (F := Ideal) x0 x7 x8 x9 x10 x11 x12 x13 x14 x15 = resultLd x0 x7 x8 x9 x10 x11 x12 x13 x14 x15 := by
  funext i
  obtain ⟨r, u, rfl⟩ : ∃ (r : Fin 4096) (u : Fin 1), i = ix2 r u := ⟨i 0, i 1, eq_ix2 i⟩
  show val_main_v40 (F := Ideal) x0 x7 x8 x9 x10 x11 x12 x13 x14 x15 (ix2 r u)
    = ldRow (aOf x0 x7 x8 x9 x10 x11 x12 x13 x14 x15 r)
  rw [← a_row, val_main_v40_apply, val_main_v39_apply, val_main_v38_apply, val_main_cst_apply]
  have ek : ∀ k : Fin 1024, idx_main_v38 (idx_main_v39 (ix2 r u)) k = ix2 r k := fun k => funext fun a => Fin.ext (by
    match a with | ⟨0, _⟩ => rfl | ⟨1, _⟩ => rfl)
  simp only [ek]
  show -(Ideal.ofBits .f32 0x00000000#32 + ∑ k : Fin 1024, val_main_v33 (F := Ideal) x0 x7 x8 x9 x10 x11 x12 x13 x14 x15 (ix2 r k))
    = -(∑ k : Fin 1024, val_main_v33 (F := Ideal) x0 x7 x8 x9 x10 x11 x12 x13 x14 x15 (ix2 r k))
  rw [Ideal.ofBits_zero_f32, zero_add]

end Cert.RefRows

end
-- ==== Proof.lean ====
/-
  A masked two-branch network computed tile by tile equals the same network computed on the whole batch.

  Both programs take a 4096 × 1024 input matrix, six 1024 × 1024 weight matrices with their biases and three
  1024 × 1024 masks. A layer multiplies a weight matrix by its mask entry by entry and sends a row x to the row whose
  entry q is the sum over k of x k times the masked weight from k to q, plus the bias. The first branch m is three
  layers with tanh between them, the second branch a is three layers with the maximum with zero between them; the
  results are (x − m) · exp (−a) entry by entry and, per row, minus the sum of a.

  The kernel stores each masked weight matrix transposed, cuts the batch into eight tiles of 512 rows and computes
  both results on each tile; the reference contracts the whole batch with the masked weights directly. Over the
  extended reals a change of float format is the identity, a matrix product into a zero accumulator is the plain sum
  over the contracted index, 0 − a is −a and 0 + s is s, so entry (r, q) of either program's results is the same
  function of row r of the input and of the masked weights: the row functions of Proof/Spec.lean. The kernel's side is
  Proof/TileRows.lean (a tile's rows), Proof/HostWeights.lean (the stored weights), Proof/TileEntry.lean and
  Proof/Blocks.lean (tiles to arrays); the reference's side is Proof/RefRows.lean. No step moves a factor across a
  sum or cancels anything, so the finiteness of the inputs is not used.
-/
import proofs.«177884_j49890340110606_1_alg».proof.Defs
import proofs.«177884_j49890340110606_1_alg».proof.Proof.Gen.Kernel
import proofs.«177884_j49890340110606_1_alg».proof.Proof.Gen.Kernel.Skeleton
import proofs.«177884_j49890340110606_1_alg».proof.Proof.Gen.Kernel.Launch
import proofs.«177884_j49890340110606_1_alg».proof.Proof.Gen.Kernel.Points
import proofs.«177884_j49890340110606_1_alg».proof.Proof.Gen.Kernel.Frame
import proofs.«177884_j49890340110606_1_alg».proof.Proof.Gen.KernelIdeal
import proofs.«177884_j49890340110606_1_alg».proof.Proof.Gen.KernelIdeal.Skeleton
import proofs.«177884_j49890340110606_1_alg».proof.Proof.Gen.KernelIdeal.Launch
import proofs.«177884_j49890340110606_1_alg».proof.Proof.Gen.KernelIdeal.Points
import proofs.«177884_j49890340110606_1_alg».proof.Proof.Gen.KernelIdeal.Frame
import proofs.«177884_j49890340110606_1_alg».proof.Proof.Gen.ReferenceIdeal
import proofs.«177884_j49890340110606_1_alg».proof.Proof.Gen.Pre_finite_inputs
import proofs.«177884_j49890340110606_1_alg».proof.Proof.Gen.KernelIdeal.Value
import proofs.«177884_j49890340110606_1_alg».proof.Proof.Gen.ReferenceIdeal.Run
import proofs.«177884_j49890340110606_1_alg».proof.Proof.Gen.ReferenceIdeal.Read
import proofs.«177884_j49890340110606_1_alg».proof.Proof.Blocks
import proofs.«177884_j49890340110606_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- The idealized kernel runs, and leaves its arguments as they were. -/
theorem frame_kernelIdeal : Cert.frame_KernelIdeal := fun m ρ _ => Cert.KernelIdeal.Gen.frame m ρ

/-- The idealized reference runs, and leaves its arguments as they were: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's are the specification's two arrays. -/
theorem algebraic : Cert.algebraic_KernelIdeal_ReferenceIdeal := by
  intro m ρ m' ρ' _ hagree
  refine ⟨fun c => Cert.Blocks.finalU m c, fun c => Cert.Blocks.finalLd m c, Cert.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.RefRows.result_u (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
    obtain ⟨a0, a1, a2, a3, a4, a5, a6, a7, a8, a9, a10, a11, a12, a13, a14, a15⟩ := hagree c
    rw [a0, a1, a2, a3, a4, a5, a6, a7, a8, a9, a10, a11, a12, a13, a14, a15]
    rfl
  · refine (Cert.RefRows.result_ld (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
    obtain ⟨a0, a1, a2, a3, a4, a5, a6, a7, a8, a9, a10, a11, a12, a13, a14, a15⟩ := hagree c
    rw [a0, a7, a8, a9, a10, a11, a12, a13, a14, a15]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
